-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S4864x256 : S_.BroadcastsInDim S4864x256 (![] : Fin 0 → Fin S4864x256.rank)
  reducesTo_S4864x256_S_d0_1 : S4864x256.ReducesTo [0, 1] S_

variable [Facts]

def fn {F : FTy → Type} [FloatOps F] (main_arg0 : FVec F S64x256x256 .f32) (main_arg1 : IVec S64 32) (main_arg2 : FVec F S4864x256 .f32) (main_arg3 : IVec S4864 32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S4864x256 .f32 := Host.absf main_arg2
  let main_cst_0 : FVec F S_ .f32 := constant S_ .f32 0x7F800000#32
  let main_v5 : FVec F S4864x256 .f32 := broadcastInDim S4864x256 ![] bcast_S_S4864x256 main_cst_0
  let main_v6 : IVec S4864x256 1 := cmpf .olt main_v4 main_v5
  let main_c_1 : IVec S_ 1 := constantI S_ 1 1#1
  let main_v7 : IVec S_ 1 := (fun x v => Host.reduce IntOp.andi x v reducesTo_S4864x256_S_d0_1 h_S_) main_v6 main_c_1
  let main_v8 : IVec S_ 1 := andi main_v3 main_v7
  main_v8
-- ==== Kernel.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩
abbrev S64x256 : Shape := ⟨2, ![64, 256]⟩
abbrev S64x256x1 : Shape := ⟨3, ![64, 256, 1]⟩
abbrev S256x64x256 : Shape := ⟨3, ![256, 64, 256]⟩
abbrev S16384x256 : Shape := ⟨2, ![16384, 256]⟩
abbrev S1x64 : Shape := ⟨2, ![1, 64]⟩
abbrev S256x64 : Shape := ⟨2, ![256, 64]⟩
abbrev S16384 : Shape := ⟨1, ![16384]⟩
abbrev S16384x1 : Shape := ⟨2, ![16384, 1]⟩
abbrev S1x4864 : Shape := ⟨2, ![1, 4864]⟩
abbrev S256x256 : Shape := ⟨2, ![256, 256]⟩
abbrev S256x1 : Shape := ⟨2, ![256, 1]⟩
abbrev S256x4864 : Shape := ⟨2, ![256, 4864]⟩
abbrev S256 : Shape := ⟨1, ![256]⟩

abbrev nBuf : Space → Nat
  | .hbm => 32
  | .vmem => 8
  | .smem => 0
  | _ => 0

abbrev bufTy : (tb : Table) → Fin (tcTables nBuf tb) → BufTy
  | .hbm, ⟨0, _⟩ => ⟨S64x256x256, .f32⟩
  | .hbm, ⟨1, _⟩ => ⟨S64, .i32⟩
  | .hbm, ⟨2, _⟩ => ⟨S4864x256, .f32⟩
  | .hbm, ⟨3, _⟩ => ⟨S4864, .i32⟩
  | .hbm, ⟨4, _⟩ => ⟨S64x256x256, .f32⟩
  | .hbm, ⟨5, _⟩ => ⟨S_, .f32⟩
  | .hbm, ⟨6, _⟩ => ⟨S64x256, .f32⟩
  | .hbm, ⟨7, _⟩ => ⟨S64x256x1, .f32⟩
  | .hbm, ⟨8, _⟩ => ⟨S64x256x1, .f32⟩
  | .hbm, ⟨9, _⟩ => ⟨S_, .f32⟩
  | .hbm, ⟨10, _⟩ => ⟨S_, .f32⟩
  | .hbm, ⟨11, _⟩ => ⟨S64x256x1, .f32⟩
  | .hbm, ⟨12, _⟩ => ⟨S64x256x1, .f32⟩
  | .hbm, ⟨13, _⟩ => ⟨S_, .f32⟩
  | .hbm, ⟨14, _⟩ => ⟨S64x256x1, .f32⟩
  | .hbm, ⟨15, _⟩ => ⟨S64x256x1, .f32⟩
  | .hbm, ⟨16, _⟩ => ⟨S64x256x256, .f32⟩
  | .hbm, ⟨17, _⟩ => ⟨S64x256x256, .f32⟩
  | .hbm, ⟨18, _⟩ => ⟨S256x64x256, .f32⟩
  | .hbm, ⟨19, _⟩ => ⟨S16384x256, .f32⟩
  | .hbm, ⟨20, _⟩ => ⟨S16384x256, .bf16⟩
  | .hbm, ⟨21, _⟩ => ⟨S1x64, .i32⟩
  | .hbm, ⟨22, _⟩ => ⟨S256x64, .i32⟩
  | .hbm, ⟨23, _⟩ => ⟨S16384, .i32⟩
  | .hbm, ⟨24, _⟩ => ⟨S4864x256, .bf16⟩
  | .hbm, ⟨25, _⟩ => ⟨S16384x1, .i32⟩
  | .hbm, ⟨26, _⟩ => ⟨S1x4864, .i32⟩
  | .hbm, ⟨27, _⟩ => ⟨S16384x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S256x256, .bf16⟩
  | .local _ .vmem, ⟨1, _⟩ => ⟨S256x256, .bf16⟩
  | .local _ .vmem, ⟨2, _⟩ => ⟨S4864x256, .bf16⟩
  | .local _ .vmem, ⟨3, _⟩ => ⟨S256x1, .i32⟩
  | .local _ .vmem, ⟨4, _⟩ => ⟨S256x1, .i32⟩
  | .local _ .vmem, ⟨5, _⟩ => ⟨S1x4864, .i32⟩
  | .local _ .vmem, ⟨6, _⟩ => ⟨S256x1, .f32⟩
  | .local _ .vmem, ⟨7, _⟩ => ⟨S256x1, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4864x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4864 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256x256_S64x256_d2 : S64x256x256.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x256_0_1_2 : S64x256x1.BroadcastsInDim S64x256x256 (![0, 1, 2] : Fin 3 → Fin S64x256x256.rank)
  transposes_S64x256x256_S256x64x256_1_0_2 : S64x256x256.Transposes [1, 0, 2] S256x64x256
  shapeCasts_S256x64x256_S16384x256 : S256x64x256.ShapeCasts S16384x256
  bitsLt_bf16_f32 : FTy.bits .bf16 < FTy.bits .f32
  shapeCasts_S64_S1x64 : S64.ShapeCasts S1x64
  bcast_S1x64_S256x64_0_1 : S1x64.BroadcastsInDim S256x64 (![0, 1] : Fin 2 → Fin S256x64.rank)
  shapeCasts_S256x64_S16384 : S256x64.ShapeCasts S16384
  shapeCasts_S16384_S16384x1 : S16384.ShapeCasts S16384x1
  shapeCasts_S4864_S1x4864 : S4864.ShapeCasts S1x4864
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4864x256_S4864x256_0_0 : ∀ a, (![0, 0] : Fin 2 → Nat) a + S4864x256.size a ≤ S4864x256.size a
  h_S4864x256 : 0 < S4864x256.numel
  shapeCasts_S4864x256_S4864x256 : S4864x256.ShapeCasts S4864x256
  transposes_S4864x256_p1_0_S256x4864 : S4864x256.Transposes [1, 0] S256x4864
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4864_S1x4864_0_0 : ∀ a, (![0, 0] : Fin 2 → Nat) a + S1x4864.size a ≤ S1x4864.size a
  h_S1x4864 : 0 < S1x4864.numel
  shapeCasts_S1x4864_S1x4864 : S1x4864.ShapeCasts S1x4864
  broadcasts_S256x1_S256x4864 : S256x1.Broadcasts S256x4864
  broadcasts_S1x4864_S256x4864 : S1x4864.Broadcasts S256x4864
  reduces_S256x4864_S256 : S256x4864.Reduces [1] S256
  shapeCasts_S256_S256x1 : S256.ShapeCasts S256x1
  natLt_1_32 : 1 < 32
  reducesTo_S16384x1_S_d0_1 : S16384x1.ReducesTo [0, 1] S_
  dot_S256x256_S256x4864_S256x4864_1_0_0_1_n_n_wf : DotDims.WF S256x256 S256x4864 S256x4864 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .bf16 = 32 ∨ (Rect.block (s := S16384x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4864x256.size a ≤ S4864x256.size a
  hwx0_1 : ∀ i : grid0.Coords, EltTy.bits .bf16 = 32 ∨ (Rect.block (s := S4864x256) S4864x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4864.size a ≤ S1x4864.size a
  hwx0_3 : ∀ i : grid0.Coords, EltTy.bits .i32 = 32 ∨ (Rect.block (s := S1x4864) S1x4864.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)

variable [Facts₀]

def dot_S256x256_S256x4864_S256x4864_1_0_0_1_n_n : DotDims S256x256 S256x4864 S256x4864 where
  lhsContracting := [1]
  rhsContracting := [0]
  lhsNonContracting := [0]
  rhsNonContracting := [1]
  lhsBatch := []
  rhsBatch := []
  wf := dot_S256x256_S256x4864_S256x4864_1_0_0_1_n_n_wf

abbrev win0_0 : Pipeline.Window sig grid0 :=
  Pipeline.Window.ofSpec (Memref.whole main_v8) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4864x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x4864.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩
abbrev S64x256 : Shape := ⟨2, ![64, 256]⟩
abbrev S64x256x1 : Shape := ⟨3, ![64, 256, 1]⟩
abbrev S256x64x256 : Shape := ⟨3, ![256, 64, 256]⟩
abbrev S16384x256 : Shape := ⟨2, ![16384, 256]⟩
abbrev S64x1 : Shape := ⟨2, ![64, 1]⟩
abbrev S1x4864 : Shape := ⟨2, ![1, 4864]⟩
abbrev S64x4864 : Shape := ⟨2, ![64, 4864]⟩
abbrev S1x64x1x4864 : Shape := ⟨4, ![1, 64, 1, 4864]⟩
abbrev S256x64x1x4864 : Shape := ⟨4, ![256, 64, 1, 4864]⟩
abbrev S16384x4864 : Shape := ⟨2, ![16384, 4864]⟩
abbrev S256x4864 : Shape := ⟨2, ![256, 4864]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S64, .i32⟩
  | .hbm, ⟨2, _⟩ => ⟨S4864x256, .f32⟩
  | .hbm, ⟨3, _⟩ => ⟨S4864, .i32⟩
  | .hbm, ⟨4, _⟩ => ⟨S64x256x256, .f32⟩
  | .hbm, ⟨5, _⟩ => ⟨S_, .f32⟩
  | .hbm, ⟨6, _⟩ => ⟨S64x256, .f32⟩
  | .hbm, ⟨7, _⟩ => ⟨S64x256x1, .f32⟩
  | .hbm, ⟨8, _⟩ => ⟨S64x256x1, .f32⟩
  | .hbm, ⟨9, _⟩ => ⟨S_, .f32⟩
  | .hbm, ⟨10, _⟩ => ⟨S_, .f32⟩
  | .hbm, ⟨11, _⟩ => ⟨S64x256x1, .f32⟩
  | .hbm, ⟨12, _⟩ => ⟨S64x256x1, .f32⟩
  | .hbm, ⟨13, _⟩ => ⟨S64x256x256, .f32⟩
  | .hbm, ⟨14, _⟩ => ⟨S64x256x256, .f32⟩
  | .hbm, ⟨15, _⟩ => ⟨S256x64x256, .f32⟩
  | .hbm, ⟨16, _⟩ => ⟨S16384x256, .f32⟩
  | .hbm, ⟨17, _⟩ => ⟨S64x1, .i32⟩
  | .hbm, ⟨18, _⟩ => ⟨S1x4864, .i32⟩
  | .hbm, ⟨19, _⟩ => ⟨S64x4864, .i32⟩
  | .hbm, ⟨20, _⟩ => ⟨S64x4864, .i32⟩
  | .hbm, ⟨21, _⟩ => ⟨S64x4864, .i1⟩
  | .hbm, ⟨22, _⟩ => ⟨S64x4864, .f32⟩
  | .hbm, ⟨23, _⟩ => ⟨S1x64x1x4864, .f32⟩
  | .hbm, ⟨24, _⟩ => ⟨S256x64x1x4864, .f32⟩
  | .hbm, ⟨25, _⟩ => ⟨S16384x4864, .f32⟩
  | .hbm, ⟨26, _⟩ => ⟨S256x4864, .f32⟩
  | .hbm, ⟨27, _⟩ => ⟨S16384x4864, .f32⟩
  | .hbm, ⟨28, _⟩ => ⟨S_, .f32⟩
  | .hbm, ⟨29, _⟩ => ⟨S16384x4864, .f32⟩
  | .hbm, ⟨30, _⟩ => ⟨S16384x4864, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x4864, .f32⟩
  | .hbm, ⟨35, _⟩ => ⟨S16384x4864, .f32⟩
  | .hbm, ⟨36, _⟩ => ⟨S16384x4864, .f32⟩
  | .hbm, ⟨37, _⟩ => ⟨S_, .f32⟩
  | .hbm, ⟨38, _⟩ => ⟨S16384x4864, .f32⟩
  | .hbm, ⟨39, _⟩ => ⟨S16384x4864, .f32⟩
  | .hbm, ⟨40, _⟩ => ⟨S16384x4864, .f32⟩
  | .hbm, ⟨41, _⟩ => ⟨S16384x4864, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x4864, .f32⟩
  | .hbm, ⟨46, _⟩ => ⟨S16384x4864, .f32⟩
  | .hbm, ⟨47, _⟩ => ⟨S16384x4864, .f32⟩
  | .hbm, ⟨48, _⟩ => ⟨S_, .f32⟩
  | .hbm, ⟨49, _⟩ => ⟨S16384x4864, .f32⟩
  | .hbm, ⟨50, _⟩ => ⟨S16384x4864, .f32⟩
  | .hbm, ⟨51, _⟩ => ⟨S16384x4864, .f32⟩
  | .hbm, ⟨52, _⟩ => ⟨S16384x4864, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  reducesTo_S64x256x256_S64x256_d2 : S64x256x256.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x256_0_1_2 : S64x256x1.BroadcastsInDim S64x256x256 (![0, 1, 2] : Fin 3 → Fin S64x256x256.rank)
  transposes_S64x256x256_S256x64x256_1_0_2 : S64x256x256.Transposes [1, 0, 2] S256x64x256
  shapeCasts_S256x64x256_S16384x256 : S256x64x256.ShapeCasts S16384x256
  bcast_S64_S64x1_0 : S64.BroadcastsInDim S64x1 (![0] : Fin 1 → Fin S64x1.rank)
  bcast_S4864_S1x4864_1 : S4864.BroadcastsInDim S1x4864 (![1] : Fin 1 → Fin S1x4864.rank)
  bcast_S64x1_S64x4864_0_1 : S64x1.BroadcastsInDim S64x4864 (![0, 1] : Fin 2 → Fin S64x4864.rank)
  bcast_S1x4864_S64x4864_0_1 : S1x4864.BroadcastsInDim S64x4864 (![0, 1] : Fin 2 → Fin S64x4864.rank)
  shapeCasts_S64x4864_S1x64x1x4864 : S64x4864.ShapeCasts S1x64x1x4864
  bcast_S1x64x1x4864_S256x64x1x4864_0_1_2_3 : S1x64x1x4864.BroadcastsInDim S256x64x1x4864 (![0, 1, 2, 3] : Fin 4 → Fin S256x64x1x4864.rank)
  shapeCasts_S256x64x1x4864_S16384x4864 : S256x64x1x4864.ShapeCasts S16384x4864
  transposes_S4864x256_S256x4864_1_0 : S4864x256.Transposes [1, 0] S256x4864
  bcast_S_S16384x4864 : S_.BroadcastsInDim S16384x4864 (![] : Fin 0 → Fin S16384x4864.rank)
  reducesTo_S16384x4864_S16384_d1 : S16384x4864.ReducesTo [1] S16384
  bcast_S16384_S16384x1_0 : S16384.BroadcastsInDim S16384x1 (![0] : Fin 1 → Fin S16384x1.rank)
  bcast_S16384x1_S16384x4864_0_1 : S16384x1.BroadcastsInDim S16384x4864 (![0, 1] : Fin 2 → Fin S16384x4864.rank)
  bcast_S_S16384 : S_.BroadcastsInDim S16384 (![] : Fin 0 → Fin S16384.rank)
  reducesTo_S16384_S_d0 : S16384.ReducesTo [0] S_
  dot_S16384x256_S256x4864_S16384x4864_1_0_0_1_n_n_wf : DotDims.WF S16384x256 S256x4864 S16384x4864 [1] [0] [0] [1] [] []

variable [Facts₀]

def dot_S16384x256_S256x4864_S16384x4864_1_0_0_1_n_n : DotDims S16384x256 S256x4864 S16384x4864 where
  lhsContracting := [1]
  rhsContracting := [0]
  lhsNonContracting := [0]
  rhsNonContracting := [1]
  lhsBatch := []
  rhsBatch := []
  wf := dot_S16384x256_S256x4864_S16384x4864_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KOps.lean ====
/-
  The operations of the row-loss body that are not pointwise, each read at explicit coordinates of its literal shapes:
  the inner products of a [256, 256] tile of anchor rows with the [4864, 256] contrast features (the features transposed
  first, the product accumulated into zeros) are the plain sums over the 256 feature coordinates; a maximum and a sum
  along a row of a [256, 4864] array are the fold of max from -inf and the plain sum over the row; a [256] array seen
  as a column [256, 1] moves no element; a column [256, 1] and a row [1, 4864] spread over [256, 4864] read the column
  at (p, 0) and the row at (0, n).
-/
import proofs.«104632_j65575560675708_2_alg».proof.Proof.Gen.KernelIdeal
import proofs.«104632_j65575560675708_2_alg».proof.Proof.LibPlainDot
import proofs.«104632_j65575560675708_2_alg».proof.Proof.LibLaneSums
import proofs.«104632_j65575560675708_2_alg».proof.Proof.LibUnitAxes
import Idealize.ShloMosaic.Lib.ValueLayout
import Idealize.ShloMosaic.Lib.Pipeline.Value
import Idealize.ShloMosaic.PureOps.Ideal.Laws

noncomputable section

namespace Cert.KernelIdeal.RowOps

open Cert.KernelIdeal Cert.KernelIdeal.Gen Idealize.ShloMosaic Idealize.ShloMosaic.ValueIdx

abbrev dotD := dot_S256x256_S256x4864_S256x4864_1_0_0_1_n_n

theorem dot_lhs0 (j : S256x4864.Idx) (q : dotD.contr.Idx) : (dotD.lhsIdx j q 0).val = (j 0).val := by
  unfold DotDims.lhsIdx
  rw [dif_neg (show ¬(0 : Fin S256x256.rank) ∈ dotD.lhsBatch by decide), dif_pos (show (0 : Fin S256x256.rank) ∈ dotD.lhsNonContracting by decide)]
  rfl

theorem dot_rhs1 (j : S256x4864.Idx) (q : dotD.contr.Idx) : (dotD.rhsIdx j q 1).val = (j 1).val := by
  unfold DotDims.rhsIdx
  rw [dif_neg (show ¬(1 : Fin S256x4864.rank) ∈ dotD.rhsBatch by decide), dif_pos (show (1 : Fin S256x4864.rank) ∈ dotD.rhsNonContracting by decide)]
  rfl

/-- The product of the anchor tile with the transposed contrast features, into zeros, at (p, n): the inner product of
    anchor row p with contrast feature n. -/
theorem raw_apply (x0 : FVec Ideal S256x256 .bf16) (x1 : FVec Ideal S4864x256 .bf16) (p : Fin 256) (n : Fin 4864) :
    matmul dotD none (shapeCast S256x256 x0 shapeCasts_S256x256_S256x256)
        (transpose S256x4864 [1, 0] (shapeCast S4864x256 x1 shapeCasts_S4864x256_S4864x256) transposes_S4864x256_p1_0_S256x4864)
        (constant S256x4864 .f32 0x00000000#32) (ix2 p n)
      = ∑ k : Fin 256, x0 (ix2 p k) * x1 (ix2 n k) := by
  refine (Cert.LibPlainDot.matmul_zero_apply dotD rfl rfl rfl rfl dot_lhs0 dot_rhs1 none _ _ p n).trans ?_
  refine Finset.sum_congr rfl fun k _ => ?_
  rw [shapeCast_self, shapeCast_self]
  exact congrArg (x0 (ix2 p k) * ·) (transpose_ix2_apply x1 transposes_S4864x256_p1_0_S256x4864 k n)

/-- The maximum along row p of a [256, 4864] array, from -inf: the fold of max over the row. -/
theorem rowmax_apply (v : FVec Ideal S256x4864 .f32) (hφ : FKind.Formats .f32)
    (hacc : (0xFF800000#32 : BitVec 32) = 0xFF800000#32) (p : Fin 256) :
    multiReduction .maximumf [1] S256 v 0xFF800000#32 reduces_S256x4864_S256 hφ hacc (ix1 p)
      = (Finset.univ : Finset (Fin 4864)).fold max (Ideal.ofBits .f32 0xFF800000#32) (fun n => v (ix2 p n)) := by
  refine (Ideal.multiReduction_maximumf_single v 0xFF800000#32 reduces_S256x4864_S256 hφ hacc (ix1 p)).trans ?_
  refine congrArg (fun f => (Finset.univ : Finset (Fin 4864)).fold max (Ideal.ofBits .f32 0xFF800000#32) f) ?_
  funext n
  exact congrArg v (Cert.LibLaneSums.lift_last reduces_S256x4864_S256 p n)

/-- The sum along row p of a [256, 4864] array, from nothing: the plain sum over the row. -/
theorem rowsum_apply (v : FVec Ideal S256x4864 .f32) (hφ : FKind.Formats .f32)
    (hacc : (0x00000000#32 : BitVec 32) = 0x00000000#32) (p : Fin 256) :
    multiReduction .add [1] S256 v 0x00000000#32 reduces_S256x4864_S256 hφ hacc (ix1 p) = ∑ n : Fin 4864, v (ix2 p n) :=
  Cert.LibLaneSums.sum_last_apply v 0x00000000#32 reduces_S256x4864_S256 hφ hacc p

/-- A [256] array seen as a column [256, 1] reads, at (p, u), the array at p. -/
theorem col_apply {α : Type} (v : S256.Idx → α) (p : Fin 256) (u : Fin 1) :
    shapeCast S256x1 v shapeCasts_S256_S256x1 (ix2 p u) = v (ix1 p) :=
  Cert.LibLaneSums.shapeCast_a_a1_apply v shapeCasts_S256_S256x1 p u

/-- A column [256, 1] spread over [256, 4864] reads, at (p, n), the column at (p, 0). -/
theorem bcol_apply {α : Type} (v : S256x1.Idx → α) (p : Fin 256) (n : Fin 4864) :
    broadcastTo S256x4864 v broadcasts_S256x1_S256x4864 (ix2 p n) = v (ix2 p (0 : Fin 1)) :=
  Cert.LibUnitAxes.broadcastTo_a1_ab_apply v broadcasts_S256x1_S256x4864 p n

/-- A row [1, 4864] spread over [256, 4864] reads, at (p, n), the row at (0, n). -/
theorem brow_apply {α : Type} (v : S1x4864.Idx → α) (p : Fin 256) (n : Fin 4864) :
    broadcastTo S256x4864 v broadcasts_S1x4864_S256x4864 (ix2 p n) = v (ix2 (0 : Fin 1) n) :=
  broadcastTo_1b_ab_apply v broadcasts_S1x4864_S256x4864 p n

end Cert.KernelIdeal.RowOps

end
-- ==== Proof.Spec.lean ====
/-
  The supervised contrastive loss of a batch of anchor views against a set of contrast features, as one function of the
  four argument arrays, in the two arrangements the two programs compute it in.

  The anchors are an array X[a, v, k] (64 anchors, 256 views, 256 features) with one label per anchor, the contrast set
  an array C[n, k] (4864 features) with one label per feature.  Row r = 64 v + a of the loss belongs to view v of anchor
  a.  Each row is divided by its clipped Euclidean norm  c = max(tiny, sqrt(sum_k X[a,v,k]^2)),  the logits of the row
  are its inner products with the contrast features divided by the temperature tau, and the loss of a row is

      - ( sum_n [ pos(n) - log( e^{pos(n)} + sum_{n'} e^{neg(n')} + eps ) ] ) / #{n : label(n) = label(a)}

  where s(n) = logit(n) - max_n logit(n),  pos(n) = s(n) on the contrast features carrying the anchor's label and 0
  elsewhere,  neg(n) = 0 on those features and s(n) elsewhere.  The result is the mean of the 16384 row losses.

  The first arrangement divides each anchor entry by  c * tau  before the inner product and selects between s(n), e^{s(n)}
  and the constants 0, 1 by the label comparison; the second divides the inner product of the normalized row by tau and
  multiplies s(n) by the 0/1 value of the comparison (and by one minus it).  Both are stated over the same label-comparison
  word, so neither opens the integer comparison.
-/
import Idealize.ShloMosaic.PureOps.Ideal.Laws
import Idealize.ShloMosaic.Lib.ValueIdx

noncomputable section

namespace Cert.ContrastLoss

open Idealize.ShloMosaic Idealize.ShloMosaic.ValueIdx

/-- The f32 words the two programs share, as the extended reals they denote. -/
abbrev zero : EReal := Ideal.ofBits .f32 0x00000000#32
abbrev one : EReal := Ideal.ofBits .f32 0x3F800000#32
abbrev negOne : EReal := Ideal.ofBits .f32 0xBF800000#32
abbrev negInf : EReal := Ideal.ofBits .f32 0xFF800000#32
/-- 1e-10, the guard inside the logarithm. -/
abbrev eps : EReal := Ideal.ofBits .f32 0x2EDBE6FF#32
/-- 0.07, the temperature. -/
abbrev tau : EReal := Ideal.ofBits .f32 0x3D8F5C29#32
/-- 1e-12, the floor of a row's norm. -/
abbrev tiny : EReal := Ideal.ofBits .f32 0x2B8CBCCC#32
/-- 16384, the number of rows. -/
abbrev rows : EReal := Ideal.ofBits .f32 0x46800000#32

/-- Every entry of an array is a real number (neither infinity). -/
def IsReal {ι : Type} (f : ι → EReal) : Prop := ∀ i, ∃ x : ℝ, f i = (x : EReal)

/-- Row r = 64 v + a: its anchor a ... -/
def anchorOf (r : Fin 16384) : Fin 64 := ⟨r.val % 64, Nat.mod_lt _ (by decide)⟩
/-- ... and its view v. -/
def viewOf (r : Fin 16384) : Fin 256 := ⟨r.val / 64, by have := r.isLt; omega⟩

variable (X : (⟨3, ![64, 256, 256]⟩ : Shape).Idx → EReal) (ya : (⟨1, ![64]⟩ : Shape).Idx → BitVec 32)
  (C : (⟨2, ![4864, 256]⟩ : Shape).Idx → EReal) (yc : (⟨1, ![4864]⟩ : Shape).Idx → BitVec 32)

/-- The clipped Euclidean norm of view v of anchor a. -/
def clipNorm (a : Fin 64) (v : Fin 256) : EReal :=
  max tiny (Ideal.sqrt (zero + ∑ k : Fin 256, X (ix3 a v k) * X (ix3 a v k)))

/-- The logit of row r against contrast feature n, first arrangement: the anchor entries divided by (norm * tau), then
    the inner product. -/
def logitK (r : Fin 16384) (n : Fin 4864) : EReal :=
  ∑ k : Fin 256, Ideal.div (X (ix3 (anchorOf r) (viewOf r) k)) (clipNorm X (anchorOf r) (viewOf r) * tau) * C (ix2 n k)

/-- Second arrangement: the inner product of the normalized row, divided by tau. -/
def logitR (r : Fin 16384) (n : Fin 4864) : EReal :=
  Ideal.div (∑ k : Fin 256, Ideal.div (X (ix3 (anchorOf r) (viewOf r) k)) (clipNorm X (anchorOf r) (viewOf r)) * C (ix2 n k)) tau

/-- The label comparison of row r with contrast feature n, as the one-bit word the integer comparison gives. -/
def labelEq (r : Fin 16384) (n : Fin 4864) : BitVec 1 :=
  IntOp.cmpi .eq (ya (ix1 (anchorOf r))) (yc (ix1 n))

/-- The loss of one row from its logits and its label-comparison words, first arrangement (selects; the sums along the
    row start from nothing). -/
def rowLossK (lg : Fin 4864 → EReal) (w : Fin 4864 → BitVec 1) : EReal :=
  negOne * Ideal.div
    (∑ n : Fin 4864, (Scalar.select (w n) (lg n - (Finset.univ : Finset (Fin 4864)).fold max negInf lg) zero
      - Ideal.log ((Scalar.select (w n) (Ideal.exp (lg n - (Finset.univ : Finset (Fin 4864)).fold max negInf lg)) one
          + ∑ n' : Fin 4864, Scalar.select (w n') one (Ideal.exp (lg n' - (Finset.univ : Finset (Fin 4864)).fold max negInf lg)))
          + eps)))
    (∑ n : Fin 4864, ((((w n).setWidth 32).toInt : ℝ) : EReal))

/-- Second arrangement (products with the 0/1 value of the comparison; the sums along the row start from the zero word). -/
def rowLossR (lg : Fin 4864 → EReal) (w : Fin 4864 → BitVec 1) : EReal :=
  negOne * Ideal.div
    (zero + ∑ n : Fin 4864, ((lg n - (Finset.univ : Finset (Fin 4864)).fold max negInf lg) * (((w n).toNat : ℝ) : EReal)
      - Ideal.log ((Ideal.exp ((lg n - (Finset.univ : Finset (Fin 4864)).fold max negInf lg) * (((w n).toNat : ℝ) : EReal))
          + (zero + ∑ n' : Fin 4864, Ideal.exp ((lg n' - (Finset.univ : Finset (Fin 4864)).fold max negInf lg)
              * (one - (((w n').toNat : ℝ) : EReal)))))
          + eps)))
    (zero + ∑ n : Fin 4864, (((w n).toNat : ℝ) : EReal))

/-- The mean of the row losses, first arrangement. -/
def totalK : EReal :=
  Ideal.div (zero + ∑ r : Fin 16384, rowLossK (logitK X C r) (labelEq ya yc r)) rows

/-- The mean of the row losses, second arrangement. -/
def totalR : EReal :=
  Ideal.div (zero + ∑ r : Fin 16384, rowLossR (logitR X C r) (labelEq ya yc r)) rows

end Cert.ContrastLoss

end
-- ==== Proof.KPay.lean ====
/-
  The value one grid point of the row-loss body stores, read at a row.

  The body loads a [256, 256] tile of scaled anchor rows, the [4864, 256] contrast features, the tile's anchor labels
  as a column and the contrast labels as a row, and stores one number per anchor row.  Read at row p of the tile
  (the stored block is a column, so the second coordinate is 0) that number is the row loss, in the arrangement that
  selects by the label comparison, of the logits  lg(n) = sum_k tile(p, k) * features(n, k)  and of the comparison words
  w(n) = (label of row p = label of feature n).

  The proof names the product array R and the comparison array W, so that everything after them is read for arbitrary
  arrays: the pointwise operations read entry by entry, the two row reductions (the maximum from -inf, the sums from
  nothing) by their coordinate forms, the column casts and spreads by the unit-axis lemmas; what is left is the
  definition of the row loss.  Only then are R and W read at (p, n): the inner product, and the comparison of the two
  spread label arrays.
-/
import proofs.«104632_j65575560675708_2_alg».proof.Proof.Gen.KernelIdeal.Skeleton
import proofs.«104632_j65575560675708_2_alg».proof.Proof.KOps
import proofs.«104632_j65575560675708_2_alg».proof.Proof.Spec

noncomputable section

namespace Cert.KernelIdeal.RowOps

open Cert.KernelIdeal Cert.KernelIdeal.Gen Idealize.ShloMosaic Idealize.ShloMosaic.ValueIdx

/-- The pointwise operations the library has no entry lemma for: each reads its operands at the same entry. -/
theorem cmpi_at {s : Shape} {w : Nat} (q : CmpIPredicate) (a b : IVec s w) (i : s.Idx) : cmpi q a b i = IntOp.cmpi q (a i) (b i) := rfl
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The product at (p, n) with the tile and the features as they are loaded: the inner product of tile row p with
    feature n. -/
theorem raw_at (x0 : FVec Ideal S256x256 .bf16) (x1 : FVec Ideal S4864x256 .bf16) (p : Fin 256) (n : Fin 4864) :
    matmul dotD none x0 (transpose S256x4864 [1, 0] x1 transposes_S4864x256_p1_0_S256x4864)
        (constant S256x4864 .f32 0x00000000#32) (ix2 p n)
      = ∑ k : Fin 256, x0 (ix2 p k) * x1 (ix2 n k) := by
  have h := raw_apply x0 x1 p n
  rwa [shapeCast_self, shapeCast_self] at h

/-- What the body stores at row p: the row loss of the inner products of tile row p with the features, under the
    comparison of row p's label with each feature's label. -/
theorem pay_apply (x0 : FVec Ideal S256x256 .bf16) (x1 : FVec Ideal S4864x256 .bf16) (x2 : IVec S256x1 32) (x3 : IVec S1x4864 32)
    (p : Fin 256) :
    k0_pay1 (F := Ideal) x0 x1 x2 x3 (ix2 p (0 : Fin 1))
      = Cert.ContrastLoss.rowLossK (fun n => ∑ k : Fin 256, x0 (ix2 p k) * x1 (ix2 n k))
          (fun n => IntOp.cmpi .eq (x2 (ix2 p (0 : Fin 1))) (x3 (ix2 (0 : Fin 1) n))) := by
  have hR' : ∀ n : Fin 4864, matmul dotD none x0 (transpose S256x4864 [1, 0] x1 transposes_S4864x256_p1_0_S256x4864)
      (constant S256x4864 .f32 0x00000000#32) (ix2 p n) = ∑ k : Fin 256, x0 (ix2 p k) * x1 (ix2 n k) := fun n => raw_at x0 x1 p n
  have hW' : ∀ n : Fin 4864, cmpi .eq (broadcastTo S256x4864 x2 broadcasts_S256x1_S256x4864)
      (broadcastTo S256x4864 x3 broadcasts_S1x4864_S256x4864) (ix2 p n)
        = IntOp.cmpi .eq (x2 (ix2 p (0 : Fin 1))) (x3 (ix2 (0 : Fin 1) n)) := fun n => by
    simp only [cmpi_at, bcol_apply, brow_apply]
  rw [show (fun n : Fin 4864 => ∑ k : Fin 256, x0 (ix2 p k) * x1 (ix2 n k)) = _ from funext fun n => (hR' n).symm,
    show (fun n : Fin 4864 => IntOp.cmpi .eq (x2 (ix2 p (0 : Fin 1))) (x3 (ix2 (0 : Fin 1) n))) = _ from funext fun n => (hW' n).symm]
  clear hR' hW'
  unfold k0_pay1
  simp only [shapeCast_self]
  generalize matmul dotD none x0 (transpose S256x4864 [1, 0] x1 transposes_S4864x256_p1_0_S256x4864)
      (constant S256x4864 .f32 0x00000000#32) = R
  generalize cmpi .eq (broadcastTo S256x4864 x2 broadcasts_S256x1_S256x4864)
      (broadcastTo S256x4864 x3 broadcasts_S1x4864_S256x4864) = W
  simp only [mulf_apply, divf_apply, subf_apply, addf_apply, select_apply, broadcast_apply, sitofp_apply, extui_apply,
    exp_at, log_at, col_apply, bcol_apply]
  rw [rowsum_apply, rowsum_apply]
  simp only [mulf_apply, divf_apply, subf_apply, addf_apply, select_apply, broadcast_apply, sitofp_apply, extui_apply,
    exp_at, log_at, col_apply, bcol_apply]
  rw [rowmax_apply]
  try simp only [mulf_apply, divf_apply, subf_apply, addf_apply, select_apply, broadcast_apply, sitofp_apply, extui_apply,
    exp_at, log_at, col_apply, bcol_apply]
  rw [rowsum_apply]
  try simp only [mulf_apply, divf_apply, subf_apply, addf_apply, select_apply, broadcast_apply, sitofp_apply, extui_apply,
    exp_at, log_at, col_apply, bcol_apply]
  rw [rowmax_apply]
  rfl

end Cert.KernelIdeal.RowOps

end
-- ==== Proof.KBlocks.lean ====
/-
  From the grid points' blocks to the whole array of row losses.

  Grid point t of the 64 loads rows 256 t … 256 t + 255 of the scaled anchors and of the anchor labels, the whole
  contrast features and contrast labels, and writes back rows 256 t … 256 t + 255 of the [16384, 1] result.  So the
  entry (r, 0) of the result, r = 256 t + p, is what point t stores at row p of its block: the row loss of the inner
  products of anchor row r with the contrast features under the comparison of row r's label with the features' labels,
  all four arrays read as the region finds them.  The 64 blocks tile the result (row r lies in block r / 256), so the
  array after the run is that function of the row at every index.
-/
import proofs.«104632_j65575560675708_2_alg».proof.Proof.Gen.KernelIdeal.Frame
import proofs.«104632_j65575560675708_2_alg».proof.Proof.KPay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.RowOps

variable (m : (ℓ : Loc nD τ sig) → Buf (Elt Ideal) ℓ) (ρ : Dev nD → PrngReg)

theorem hz : (![0, 0] : Fin 2 → Nat) = fun _ => 0 := funext fun a => by fin_cases a <;> rfl

/-- The row of the result an index of the [16384, 1] array names. -/
def rowOf (i : S16384x1.Idx) : Fin 16384 := ⟨(i 0).val, idx2_lt0 i⟩

/-- The four windowed arrays as the region finds them: the scaled anchor rows, the contrast features, the anchor
    labels as a column, the contrast labels as a row. -/
def anchors (c : Dev nD) : S16384x256.Idx → EReal := V m c main_v8
def feats (c : Dev nD) : S4864x256.Idx → EReal := V m c main_v12
def alabels (c : Dev nD) : S16384x1.Idx → BitVec 32 := V m c main_v13
def clabels (c : Dev nD) : S1x4864.Idx → BitVec 32 := V m c main_v14

/-- The row loss of row r from those four arrays. -/
def blocksOut (c : Dev nD) : S16384x1.Idx → EReal := fun i =>
  Cert.ContrastLoss.rowLossK
    (fun n => ∑ k : Fin 256, anchors m c (ix2 (rowOf i) k) * feats m c (ix2 n k))
    (fun n => IntOp.cmpi .eq (alabels m c (ix2 (rowOf i) (0 : Fin 1))) (clabels m c (ix2 (0 : Fin 1) n)))

/-- The printed index maps over the grid: the three row-tiled windows are at block (t, 0), the two resident ones at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's anchor tile at (p, k) is the anchors at (256 t + p, k). -/
theorem iblk0_apply (c : Dev nD) (t : Fin cfg0.N) (p k : Fin 256) (r : Fin 16384) (hr : r.val = 256 * t.val + p.val) :
    (iblk m c 0 t : FVec Ideal S256x256 .bf16) (ix2 p k) = anchors m c (ix2 r k) := by
  obtain ⟨e0, e1, -⟩ := idx_facts t
  unfold iblk anchors
  rw [View.read_apply]
  show V m c main_v8 _ = V m c main_v8 _
  refine congrArg (V m c main_v8) (funext fun a => Fin.ext ?_)
  match a with
  | ⟨0, _⟩ => show win0_0.index t (0 : Fin 2) * 256 + 1 * p.val = r.val; rw [e0, hr]; omega
  | ⟨1, _⟩ => show win0_0.index t (1 : Fin 2) * 256 + 1 * k.val = k.val; rw [e1]; omega

/-- Point t's contrast features are the whole array. -/
theorem iblk1_apply (c : Dev nD) (t : Fin cfg0.N) (n : Fin 4864) (k : Fin 256) :
    (iblk m c 1 t : FVec Ideal S4864x256 .bf16) (ix2 n k) = feats m c (ix2 n k) := by
  obtain ⟨-, -, e0, e1, -⟩ := idx_facts t
  unfold iblk feats
  rw [View.read_apply]
  show V m c main_v12 _ = V m c main_v12 _
  refine congrArg (V m c main_v12) (funext fun a => Fin.ext ?_)
  match a with
  | ⟨0, _⟩ => show win0_1.index t (0 : Fin 2) * 4864 + 1 * n.val = n.val; rw [e0]; omega
  | ⟨1, _⟩ => show win0_1.index t (1 : Fin 2) * 256 + 1 * k.val = k.val; rw [e1]; omega

/-- Point t's anchor labels at (p, 0) are the labels at (256 t + p, 0). -/
theorem iblk2_apply (c : Dev nD) (t : Fin cfg0.N) (p : Fin 256) (r : Fin 16384) (hr : r.val = 256 * t.val + p.val) :
    (iblk m c 2 t : IVec S256x1 32) (ix2 p (0 : Fin 1)) = alabels m c (ix2 r (0 : Fin 1)) := by
  obtain ⟨-, -, -, -, e0, e1, -⟩ := idx_facts t
  unfold iblk alabels
  rw [View.read_apply]
  show V m c main_v13 _ = V m c main_v13 _
  refine congrArg (V m c main_v13) (funext fun a => Fin.ext ?_)
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- Point t's contrast labels are the whole row. -/
theorem iblk3_apply (c : Dev nD) (t : Fin cfg0.N) (n : Fin 4864) :
    (iblk m c 3 t : IVec S1x4864 32) (ix2 (0 : Fin 1) n) = clabels m c (ix2 (0 : Fin 1) n) := by
  obtain ⟨-, -, -, -, -, -, e0, e1, -⟩ := idx_facts t
  unfold iblk clabels
  rw [View.read_apply]
  show V m c main_v14 _ = V m c main_v14 _
  refine congrArg (V m c main_v14) (funext fun a => Fin.ext ?_)
  match a with
  | ⟨0, _⟩ => show win0_3.index t (0 : Fin 2) * 1 + 1 * 0 = 0; rw [e0]
  | ⟨1, _⟩ => show win0_3.index t (1 : Fin 2) * 4864 + 1 * n.val = n.val; rw [e1]; omega

/-- WHAT POINT t WRITES BACK is block t of the row losses. -/
theorem flushed_eq (c : Dev nD) (t : Fin cfg0.N) :
    (dats m 0 c).flushed 4 t = ((cfg0.win 4).blk t).view.read (Elt Ideal) (blocksOut m c) := by
  show (cfg0.win 4).cut (grid0.coords t) ((dats m 0 c).after 4 t) = _
  rw [after0_4]
  unfold out0_4
  rw [View.canon_unit_zero hz]
  simp only [View.ld_unit_zero (S := S256x256) hz, View.ld_unit_zero (S := S4864x256) hz, View.ld_unit_zero (S := S256x1) hz,
    View.ld_unit_zero (S := S1x4864) hz]
  funext j
  obtain ⟨p, u, rfl⟩ : ∃ (p : Fin 256) (u : Fin 1), j = ix2 p u := ⟨j 0, j 1, eq_ix2 j⟩
  obtain rfl : u = 0 := Subsingleton.elim _ _
  have ht : t.val < 64 := lt_of_lt_of_eq t.isLt N_0
  obtain ⟨-, -, -, -, -, -, -, -, e0, e1⟩ := idx_facts t
  have hrow : rowOf (((cfg0.win 4).blk t).view.emb (ix2 p (0 : Fin 1))) = ⟨256 * t.val + p.val, by omega⟩ := by
    apply Fin.ext
    show win0_4.index t (0 : Fin 2) * 256 + 1 * p.val = 256 * t.val + p.val
    rw [e0]; omega
  show k0_pay1 (F := Ideal) (iblk m c 0 t) (iblk m c 1 t) (iblk m c 2 t) (iblk m c 3 t) (ix2 p (0 : Fin 1))
    = blocksOut m c (((cfg0.win 4).blk t).view.emb (ix2 p (0 : Fin 1)))
  refine (pay_apply (iblk m c 0 t) (iblk m c 1 t) (iblk m c 2 t) (iblk m c 3 t) p).trans ?_
  unfold blocksOut
  rw [hrow]
  refine congrArg₂ Cert.ContrastLoss.rowLossK (funext fun n => Finset.sum_congr rfl fun k _ => ?_) (funext fun n => ?_)
  · rw [iblk0_apply m c t p k ⟨256 * t.val + p.val, by omega⟩ rfl, iblk1_apply m c t n k]
  · rw [iblk2_apply m c t p ⟨256 * t.val + p.val, by omega⟩ rfl, iblk3_apply m c t n]

/-- An index of the result is in point t's block iff each coordinate is in the block's range on its axis. -/
theorem mem_blk (t : Fin cfg0.N) (i : S16384x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v15).slice (win0_4.rect t)).set ↔ _
  rw [View.set_slice_whole, Rect.mem_set_unit]
  exact Iff.rfl

/-- THE ARRAY after the run: the row loss of every row. -/
theorem final (c : Dev nD) : (dats m 0 c).arrAt 4 cfg0.N = blocksOut m c :=
  (dats m 0 c).arrAt_eq_of_cover 4 (blocksOut m c) (fun t _ => flushed_eq m c t) fun i => by
    have hi0 : (i 0).val < 16384 := idx2_lt0 i
    have hi1 : (i 1).val < 1 := idx2_lt1 i
    have hN : cfg0.N = 64 := N_0
    refine ⟨⟨(i 0).val / 256, by rw [hN]; omega⟩, flush0_4 _, ?_⟩
    rw [mem_blk]
    obtain ⟨-, -, -, -, -, -, -, -, e0, e1⟩ := idx_facts ⟨(i 0).val / 256, by rw [hN]; omega⟩
    intro a
    match a with
    | ⟨0, _⟩ =>
      show win0_4.index _ (0 : Fin 2) * 256 ≤ (i 0).val ∧ (i 0).val < win0_4.index _ (0 : Fin 2) * 256 + 256
      rw [e0]; show (i 0).val / 256 * 256 ≤ (i 0).val ∧ (i 0).val < (i 0).val / 256 * 256 + 256; omega
    | ⟨1, _⟩ =>
      show win0_4.index _ (1 : Fin 2) * 1 ≤ (i 1).val ∧ (i 1).val < win0_4.index _ (1 : Fin 2) * 1 + 1
      rw [e1]; omega

end Cert.KernelIdeal.Blocks

end
-- ==== Proof.KHost.lean ====
/-
  What the four windowed arrays hold when the region is entered, read at coordinates.

  Before the region the program computes, on the host, the anchors divided by (clipped norm times temperature), laid
  out by rows r = 64 v + a (transpose of the first two axes, then flattening), narrowed in format; the anchor labels
  repeated once per view, so that row r carries the label of anchor r % 64; the contrast features narrowed in format;
  and the contrast labels as a one-row array.  At the ideal values a change of float format is the identity, so each
  array read at coordinates is an entry of an argument array, or, for the anchors, the quotient of an entry by the
  clipped norm of its view times the temperature.  The only arithmetic is the index arithmetic of the reshapes.
-/
import proofs.«104632_j65575560675708_2_alg».proof.Proof.Gen.KernelIdeal.Frame
import proofs.«104632_j65575560675708_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 8192

noncomputable section

namespace Cert.KernelIdeal.HostIn

open Cert.KernelIdeal Cert.KernelIdeal.Gen Cert.ContrastLoss Idealize.ShloMosaic Idealize.ShloMosaic.ValueIdx Idealize.SL.Sem
open Idealize.ShloMosaic.TcCoe Idealize.ShloMosaic.StableHlo

/-! ## Two indices with equal coordinates are equal -/

theorem idx1_ext {n : Nat} (i j : (⟨1, ![n]⟩ : Shape).Idx) (h0 : (i 0).val = (j 0).val) : i = j :=
  funext fun a => Fin.ext (by match a with | ⟨0, _⟩ => exact h0)

theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

variable (m : (ℓ : Loc nD τ sig) → Buf (Elt Ideal) ℓ) (c : Dev nD)

/-! ## The contrast labels -/

/-- The contrast labels as a one-row array: the host's reshape of the label array. -/
def labelsRow (yc : S4864.Idx → BitVec 32) : S1x4864.Idx → BitVec 32 :=
  shapeCast _ yc shapeCasts_S4864_S1x4864

theorem V_v14_eq : (V (F := Ideal) m c main_v14 : S1x4864.Idx → BitVec 32)
    = labelsRow (m ((c : Thread nD τ).loc main_arg3)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

theorem labelsRow_at (yc : S4864.Idx → BitVec 32) (u : Fin 1) (n : Fin 4864) : labelsRow yc (ix2 u n) = yc (ix1 n) := by
  unfold labelsRow
  refine shapeCast_apply yc shapeCasts_S4864_S1x4864 (ix2 u n) (ix1 n) ?_
  rw [Shape.rowMajor_val_one, Shape.rowMajor_val_two]
  have hu := u.isLt
  show n.val = u.val * 4864 + n.val
  omega

/-- The one-row array of contrast labels at (0, n) is the label of feature n. -/
theorem V_v14_at (u : Fin 1) (n : Fin 4864) :
    (V (F := Ideal) m c main_v14 : S1x4864.Idx → BitVec 32) (ix2 u n)
      = (m ((c : Thread nD τ).loc main_arg3) : S4864.Idx → BitVec 32) (ix1 n) := by
  rw [V_v14_eq, labelsRow_at]

/-! ## The contrast features -/

/-- The contrast features narrowed in format. -/
def featuresNarrow (Cf : FVec Ideal S4864x256 .f32) : FVec Ideal S4864x256 .bf16 :=
  truncf .bf16 Cf bitsLt_bf16_f32

theorem V_v12_eq : (V (F := Ideal) m c main_v12 : S4864x256.Idx → EReal)
    = featuresNarrow (m ((c : Thread nD τ).loc main_arg2)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- At the ideal values the narrowed contrast features are the contrast features. -/
theorem V_v12_at (n : Fin 4864) (k : Fin 256) :
    (V (F := Ideal) m c main_v12 : S4864x256.Idx → EReal) (ix2 n k)
      = (m ((c : Thread nD τ).loc main_arg2) : S4864x256.Idx → EReal) (ix2 n k) := by
  rw [V_v12_eq]
  rfl

/-! ## The anchor labels, once per view -/

/-- The anchor labels as a one-row array, repeated along 256 rows, flattened, and cast to a column. -/
def labelsCol (ya : S64.Idx → BitVec 32) : S16384x1.Idx → BitVec 32 :=
  shapeCast _ (shapeCast _ (broadcastInDim S256x64 ![0, 1] bcast_S1x64_S256x64_0_1
    (shapeCast _ ya shapeCasts_S64_S1x64)) shapeCasts_S256x64_S16384) shapeCasts_S16384_S16384x1

theorem V_v13_eq : (V (F := Ideal) m c main_v13 : S16384x1.Idx → BitVec 32)
    = labelsCol (m ((c : Thread nD τ).loc main_arg1)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

theorem labelsCol_at (ya : S64.Idx → BitVec 32) (r : Fin 16384) (u : Fin 1) :
    labelsCol ya (ix2 r u) = ya (ix1 (anchorOf r)) := by
  have hr := r.isLt
  have hu := u.isLt
  unfold labelsCol
  rw [shapeCast_apply _ shapeCasts_S16384_S16384x1 (ix2 r u) (ix1 r) (by
      rw [Shape.rowMajor_val_one, Shape.rowMajor_val_two]
      show r.val = r.val * 1 + u.val
      omega),
    shapeCast_apply _ shapeCasts_S256x64_S16384 (ix1 r) (ix2 (viewOf r) (anchorOf r)) (by
      rw [Shape.rowMajor_val_two, Shape.rowMajor_val_one]
      show r.val / 64 * 64 + r.val % 64 = r.val
      omega),
    broadcastInDim_apply ![0, 1] bcast_S1x64_S256x64_0_1 _ (ix2 (viewOf r) (anchorOf r))
      (ix2 (0 : Fin 1) (anchorOf r)) (fun a => match a with
        | ⟨0, _⟩ => by show 0 = if (1 : Nat) = 1 then 0 else r.val / 64; rw [if_pos rfl]
        | ⟨1, _⟩ => by show r.val % 64 = if (64 : Nat) = 1 then 0 else r.val % 64; rw [if_neg (by decide)]),
    shapeCast_apply _ shapeCasts_S64_S1x64 (ix2 (0 : Fin 1) (anchorOf r)) (ix1 (anchorOf r)) (by
      rw [Shape.rowMajor_val_one, Shape.rowMajor_val_two]
      show r.val % 64 = 0 * 64 + r.val % 64
      omega)]

/-- Row r of the label column carries the label of anchor r % 64. -/
theorem V_v13_at (r : Fin 16384) (u : Fin 1) :
    (V (F := Ideal) m c main_v13 : S16384x1.Idx → BitVec 32) (ix2 r u)
      = (m ((c : Thread nD τ).loc main_arg1) : S64.Idx → BitVec 32) (ix1 (anchorOf r)) := by
  rw [V_v13_eq, labelsCol_at]

/-! ## The scaled anchors by rows -/

/-- The sum of squares of each view. -/
def sumSq (X : FVec Ideal S64x256x256 .f32) : FVec Ideal S64x256 .f32 :=
  Host.reduceAdd (mulf X X) (constant (F := Ideal) S_ .f32 0x00000000#32) reducesTo_S64x256x256_S64x256_d2 h_S_

/-- The clipped norm of each view, on a unit last axis. -/
def clipped (X : FVec Ideal S64x256x256 .f32) : FVec Ideal S64x256x1 .f32 :=
  maximumf (broadcastInDim S64x256x1 ![] bcast_S_S64x256x1 (id (constant (F := Ideal) S_ .f32 0x2B8CBCCC#32)))
    (Host.sqrt (broadcastInDim S64x256x1 ![0, 1] bcast_S64x256_S64x256x1_0_1 (sumSq X)))

/-- Each anchor entry divided by (clipped norm of its view times the temperature). -/
def scaled (X : FVec Ideal S64x256x256 .f32) : FVec Ideal S64x256x256 .f32 :=
  Host.divf X (broadcastInDim S64x256x256 ![0, 1, 2] bcast_S64x256x1_S64x256x256_0_1_2
    (mulf (clipped X) (broadcastInDim S64x256x1 ![] bcast_S_S64x256x1 (constant (F := Ideal) S_ .f32 0x3D8F5C29#32))))

/-- The scaled anchors with the first two axes exchanged, flattened to rows, narrowed in format. -/
def anchorsRows (X : FVec Ideal S64x256x256 .f32) : FVec Ideal S16384x256 .bf16 :=
  truncf .bf16 (shapeCast _ (transpose S256x64x256 [1, 0, 2] (scaled X) transposes_S64x256x256_S256x64x256_1_0_2)
    shapeCasts_S256x64x256_S16384x256) bitsLt_bf16_f32

theorem V_v8_eq : (V (F := Ideal) m c main_v8 : S16384x256.Idx → EReal)
    = anchorsRows (m ((c : Thread nD τ).loc main_arg0)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The host's quotient at an index is the quotient of the entries. -/
theorem hostDivf_apply {s : Shape} {φ : FTy} (x y : FVec Ideal s φ) (i : s.Idx) :
    Host.divf x y i = Ideal.div (x i) (y i) := rfl

/-- The host's square root at an index is the square root of the entry. -/
theorem hostSqrt_apply {s : Shape} {φ : FTy} (x : FVec Ideal s φ) (i : s.Idx) :
    Host.sqrt x i = Ideal.sqrt (x i) := rfl

theorem sumSq_at (X : FVec Ideal S64x256x256 .f32) (a : Fin 64) (v : Fin 256) :
    sumSq X (ix2 a v) = zero + ∑ k : Fin 256, X (ix3 a v k) * X (ix3 a v k) := by
  unfold sumSq
  simp only [Host.reduceAdd, Ideal.hostReduceAdd_def]
  rw [Ideal.hostReduceAdd_single reducesTo_S64x256x256_S64x256_d2 (by decide)]
  refine congrArg (fun s => zero + s) (Finset.sum_congr rfl fun k _ => ?_)
  have e : (by decide : S64x256x256.Reduces [2] S64x256).lift (ix2 a v) k = ix3 a v k := idx3_ext _ _ rfl rfl rfl
  rw [e]
  rfl

theorem clipped_at (X : FVec Ideal S64x256x256 .f32) (a : Fin 64) (v : Fin 256) (z : Fin 1) :
    clipped X (ix3 a v z) = clipNorm X a v := by
  unfold clipped
  rw [maximumf_apply,
    broadcastInDim_apply ![] bcast_S_S64x256x1 _ (ix3 a v z) ix0 (fun b => b.elim0), hostSqrt_apply,
    broadcastInDim_apply ![0, 1] bcast_S64x256_S64x256x1_0_1 _ (ix3 a v z) (ix2 a v) (fun b => match b with
        | ⟨0, _⟩ => by show a.val = if (64 : Nat) = 1 then 0 else a.val; rw [if_neg (by decide)]
        | ⟨1, _⟩ => by show v.val = if (256 : Nat) = 1 then 0 else v.val; rw [if_neg (by decide)]),
    sumSq_at]
  rfl

theorem scaled_at (X : FVec Ideal S64x256x256 .f32) (a : Fin 64) (v : Fin 256) (k : Fin 256) :
    scaled X (ix3 a v k) = Ideal.div (X (ix3 a v k)) (clipNorm X a v * tau) := by
  unfold scaled
  rw [hostDivf_apply, broadcastInDim_apply ![0, 1, 2] bcast_S64x256x1_S64x256x256_0_1_2 _ (ix3 a v k) (ix3 a v (0 : Fin 1))
      (fun b => match b with
        | ⟨0, _⟩ => by show a.val = if (64 : Nat) = 1 then 0 else a.val; rw [if_neg (by decide)]
        | ⟨1, _⟩ => by show v.val = if (256 : Nat) = 1 then 0 else v.val; rw [if_neg (by decide)]
        | ⟨2, _⟩ => by show 0 = if (1 : Nat) = 1 then 0 else k.val; rw [if_pos rfl]),
    mulf_apply, clipped_at,
    broadcastInDim_apply ![] bcast_S_S64x256x1 _ (ix3 a v (0 : Fin 1)) ix0 (fun b => b.elim0)]
  rfl

theorem anchorsRows_at (X : FVec Ideal S64x256x256 .f32) (r : Fin 16384) (k : Fin 256) :
    anchorsRows X (ix2 r k)
      = Ideal.div (X (ix3 (anchorOf r) (viewOf r) k)) (clipNorm X (anchorOf r) (viewOf r) * tau) := by
  have hr := r.isLt
  have hk := k.isLt
  unfold anchorsRows
  rw [truncf_apply,
    shapeCast_apply _ shapeCasts_S256x64x256_S16384x256 (ix2 r k) (ix3 (viewOf r) (anchorOf r) k) (by
      rw [Shape.rowMajor_val_three, Shape.rowMajor_val_two]
      show (r.val / 64 * 64 + r.val % 64) * 256 + k.val = r.val * 256 + k.val
      omega),
    transpose_apply [1, 0, 2] _ transposes_S64x256x256_S256x64x256_1_0_2 (ix3 (viewOf r) (anchorOf r) k)
      (ix3 (anchorOf r) (viewOf r) k) (fun b => match b with
        | ⟨0, _⟩ => rfl
        | ⟨1, _⟩ => rfl
        | ⟨2, _⟩ => rfl),
    scaled_at]

/-- Row r = 64 v + a of the scaled anchors is view v of anchor a divided by (its clipped norm times the temperature). -/
theorem V_v8_at (r : Fin 16384) (k : Fin 256) :
    (V (F := Ideal) m c main_v8 : S16384x256.Idx → EReal) (ix2 r k)
      = Ideal.div ((m ((c : Thread nD τ).loc main_arg0) : S64x256x256.Idx → EReal) (ix3 (anchorOf r) (viewOf r) k))
          (clipNorm (m ((c : Thread nD τ).loc main_arg0)) (anchorOf r) (viewOf r) * tau) := by
  rw [V_v8_eq, anchorsRows_at]

end Cert.KernelIdeal.HostIn

end
-- ==== Proof.KTail.lean ====
/-
  The kernel program's run with its host tail read.

  After the region the program takes the mean of the region's [16384, 1] output array: the sum over both axes from the
  zero word, divided by the word of 16384.  A sum over every index of a [16384, 1] array is the sum over its rows (the
  second coordinate is always 0), so when the output array holds at each index the loss of its row, the result buffer
  ends at the mean of the 16384 row losses, first arrangement; the four argument arrays end as launched.
-/
import proofs.«104632_j65575560675708_2_alg».proof.Proof.Gen.KernelIdeal.Frame
import proofs.«104632_j65575560675708_2_alg».proof.Proof.Spec
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.KernelIdeal.Tail

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The row a [16384, 1] index names. -/
def rowOf (i : S16384x1.Idx) : Fin 16384 := ⟨(i 0).val, ValueIdx.idx2_lt0 i⟩

/-- The region's output: at each index the loss of its row, first arrangement. -/
def rowsOut (X : S64x256x256.Idx → EReal) (ya : S64.Idx → BitVec 32) (C : S4864x256.Idx → EReal) (yc : S4864.Idx → BitVec 32) :
    S16384x1.Idx → EReal :=
  fun i => Cert.ContrastLoss.rowLossK (Cert.ContrastLoss.logitK X C (rowOf i)) (Cert.ContrastLoss.labelEq ya yc (rowOf i))

/-- Row r is the row of the index (r, 0). -/
theorem rowOf_ix2 (r : Fin 16384) : rowOf (ix2 r (0 : Fin 1)) = r := Fin.ext rfl

/-- The indices of a [16384, 1] array are its rows: the second coordinate is below 1, so it is 0. -/
def rowEquiv : S16384x1.Idx ≃ Fin 16384 where
  toFun := rowOf
  invFun r := ix2 r (0 : Fin 1)
  left_inv i := by
    funext a
    apply Fin.ext
    match a with
    | ⟨0, _⟩ => rfl
    | ⟨1, _⟩ =>
      have h1 := ValueIdx.idx2_lt1 i
      show 0 = (i 1).val
      omega
  right_inv r := rowOf_ix2 r

/-- The mean of a [16384, 1] array as the host takes it — the sum over both axes from the zero word, divided by the word
    of 16384 — is the sum over the rows from the zero word, divided by that word: the sum over every index of the array
    re-indexed by its rows. -/
theorem mean_eq (y : S16384x1.Idx → EReal) (h : S16384x1.ReducesTo [0, 1] S_) (hu : 0 < S_.numel) :
    Host.divf (F := Ideal) (φ := .f32)
        (Host.reduceAdd (F := Ideal) (φ := .f32) y (constant (F := Ideal) S_ .f32 0x00000000#32) h hu)
        (constant (F := Ideal) S_ .f32 0x46800000#32)
      = fun _ => Ideal.div (Cert.ContrastLoss.zero + ∑ r : Fin 16384, y (ix2 r (0 : Fin 1))) Cert.ContrastLoss.rows := by
  funext j
  simp only [Host.divf, Host.reduceAdd, Ideal.hostDivf_def, Ideal.hostReduceAdd_def]
  rw [Ideal.hostReduceAdd_total h (fun b => b.elim0)]
  show Ideal.div (Ideal.ofBits .f32 0x00000000#32 + ∑ i : S16384x1.Idx, y i) (Ideal.ofBits .f32 0x46800000#32) = _
  rw [Fintype.sum_equiv rowEquiv (fun i => y i) (fun r => y (ix2 r (0 : Fin 1))) (fun i => congrArg y (rowEquiv.left_inv i).symm)]

variable (m : (ℓ : Loc nD τ sig) → Buf (Elt Ideal) ℓ) (ρ : Dev nD → PrngReg)

/-- The program's result buffer after the host tail, when the region's output array holds the row losses: their mean. -/
theorem tail_value (c : Dev nD)
    (hfinal : (dats (F := Ideal) m 0 c).arrAt 4 cfg0.N = rowsOut (m ((c.tc : Thread nD τ).loc main_arg0)) (m ((c.tc : Thread nD τ).loc main_arg1)) (m ((c.tc : Thread nD τ).loc main_arg2)) (m ((c.tc : Thread nD τ).loc main_arg3))) :
    Pipeline.afterTail₀ cfgs (dats (F := Ideal) m) 0 (V0 m) [hostOps1] c main_v17
      = fun _ => Cert.ContrastLoss.totalK (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v17) = _
  after_results
  rw [(Pipeline.withArrays_arr spec0 launch0.win.arr_inj c _ _ 4).trans hfinal]
  rw [mean_eq]
  funext _
  simp only [Cert.ContrastLoss.totalK, rowsOut, rowOf_ix2]

/-- The run: the result buffer ends at the mean of the row losses and the four arguments end as launched. -/
theorem run_total
    (hfinal : ∀ c : Dev nD, (dats (F := Ideal) m 0 c).arrAt 4 cfg0.N = rowsOut (m ((c.tc : Thread nD τ).loc main_arg0)) (m ((c.tc : Thread nD τ).loc main_arg1)) (m ((c.tc : Thread nD τ).loc main_arg2)) (m ((c.tc : Thread nD τ).loc main_arg3))) :
    θ_run defs (onTc (τ := τ) (main (F := Ideal))) ⟨m, fun _ => 0, ρ⟩ (fun r => ∀ c : Dev nD,
      r.2.mem ((c.tc : Thread nD τ).loc main_v17) = (fun _ => Cert.ContrastLoss.totalK (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v17 (Pipeline.mem_restRefs_of main_v17 (by decide) (by decide))).trans (tail_value m c (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.KValue.lean ====
/-
  The kernel program's run, read whole: its result is the mean of the row losses of the argument arrays, in the
  arrangement that scales each anchor entry by (clipped norm * temperature) before the inner products.

  Three facts meet here.  The region leaves in its [16384, 1] output the row loss of every row, computed from the four
  arrays the host operations before the region prepared (the blocks).  Those four arrays, read at coordinates, are the
  scaled anchors X[a, v, k] / (clipNorm(a, v) * tau) at row 64 v + a, the contrast features unchanged, anchor a's label
  at every row 64 v + a, and the contrast labels unchanged (the host operations before the region).  The host
  operations after the region take the mean over the 16384 rows (the tail).
-/
import proofs.«104632_j65575560675708_2_alg».proof.Proof.KBlocks
import proofs.«104632_j65575560675708_2_alg».proof.Proof.KHost
import proofs.«104632_j65575560675708_2_alg».proof.Proof.KTail

noncomputable section

open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ) (ρ : Dev nD → PrngReg)

/-- The row losses computed from the prepared arrays are the row losses of the argument arrays: row r's logits are
    the inner products of the scaled anchor row with the contrast features, its comparison words compare anchor
    (r mod 64)'s label with each contrast label. -/
theorem blocksOut_eq (c : Dev nD) :
    Cert.KernelIdeal.Blocks.blocksOut m c
      = Cert.KernelIdeal.Tail.rowsOut (m ((c.tc : Thread nD τ).loc main_arg0)) (m ((c.tc : Thread nD τ).loc main_arg1))
          (m ((c.tc : Thread nD τ).loc main_arg2)) (m ((c.tc : Thread nD τ).loc main_arg3)) := by
  funext i
  unfold Cert.KernelIdeal.Blocks.blocksOut Cert.KernelIdeal.Tail.rowsOut
  refine congrArg₂ Cert.ContrastLoss.rowLossK (funext fun n => ?_) (funext fun n => ?_)
  · unfold Cert.ContrastLoss.logitK
    refine Finset.sum_congr rfl fun k _ => ?_
    unfold Cert.KernelIdeal.Blocks.anchors Cert.KernelIdeal.Blocks.feats
    rw [Cert.KernelIdeal.HostIn.V_v8_at m c (Cert.KernelIdeal.Blocks.rowOf i) k, Cert.KernelIdeal.HostIn.V_v12_at m c n k]
    rfl
  · unfold Cert.ContrastLoss.labelEq Cert.KernelIdeal.Blocks.alabels Cert.KernelIdeal.Blocks.clabels
    rw [Cert.KernelIdeal.HostIn.V_v13_at m c (Cert.KernelIdeal.Blocks.rowOf i) (0 : Fin 1), Cert.KernelIdeal.HostIn.V_v14_at m c (0 : Fin 1) n]
    rfl

/-- Every weakly fair execution of the kernel program ends with its result at the mean of the row losses and its
    arguments unchanged. -/
theorem run : θ_run defs (onTc (τ := τ) (main (F := Ideal))) ⟨m, fun _ => 0, ρ⟩ (fun r => ∀ c : Dev nD,
      r.2.mem ((c.tc : Thread nD τ).loc main_v17) = (fun _ => Cert.ContrastLoss.totalK (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.Tail.run_total m ρ fun c => (Cert.KernelIdeal.Blocks.final m c).trans (blocksOut_eq m c)

end Cert.KernelIdeal.Whole

end
-- ==== Proof.RefValue.lean ====
/-
  The reference program read as the second arrangement of the contrastive loss.

  Each stage of the reference program is read at explicit coordinates and identified with the corresponding piece of
  the mathematical definition: the clipped norm of a view, the normalized anchors laid out by rows r = 64 v + a, the
  0/1 value of the label comparison, the logits, the row maximum (a fold of max from minus infinity), the shifted
  logits multiplied by the comparison value and by one minus it, the exponentials, the row sums, the logarithm, the
  row loss, and last the mean over the 16384 rows.  The only arithmetic is the index arithmetic of the reshapes:
  row-major position r * 256 + k of a [256, 64, 256] array is (r / 64, r % 64, k), and position r * 4864 + n of a
  [256, 64, 1, 4864] array is (r / 64, r % 64, 0, n).  The float words stay words on both sides.
-/
import proofs.«104632_j65575560675708_2_alg».proof.Proof.Gen.ReferenceIdeal.Read
import proofs.«104632_j65575560675708_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.ContrastLoss

/-! ## Two indices with equal coordinates are equal -/

theorem idx1_ext {n : Nat} (i j : (⟨1, ![n]⟩ : Shape).Idx) (h0 : (i 0).val = (j 0).val) : i = j :=
  funext fun a => Fin.ext (by match a with | ⟨0, _⟩ => exact h0)

theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

variable (X : (⟨S64x256x256, .f32⟩ : BufTy).Contents (Elt Ideal)) (ya : (⟨S64, .i32⟩ : BufTy).Contents (Elt Ideal))
  (C : (⟨S4864x256, .f32⟩ : BufTy).Contents (Elt Ideal)) (yc : (⟨S4864, .i32⟩ : BufTy).Contents (Elt Ideal))

/-! ## The clipped norm and the normalized rows -/

/-- The clipped norm of view v of anchor a, at the one position of the unit axis. -/
theorem v1_at (a : Fin 64) (v : Fin 256) (z : Fin 1) :
    val_main_v1 (F := Ideal) X (ix3 a v z) = clipNorm X a v := by
  rw [val_main_v1_apply, val_main_call1_v1_apply, val_main_call1_v0_apply, val_main_cst_apply, val_main_v0_apply,
    val_main_call0_v2_apply, val_main_call0_v1_apply, val_main_call0_cst_apply]
  simp only [val_main_call0_v0_apply, Ideal.maximumf_def, Ideal.hostUnary_sqrt_def, Ideal.mulf_def, Ideal.ofBits_def]
  unfold clipNorm
  refine congrArg (fun s => max tiny (Ideal.sqrt (zero + s))) (Finset.sum_congr rfl fun k _ => ?_)
  have e : idx_main_call0_v1 (idx_main_call0_v2 (ix3 a v z)) k = ix3 a v k := idx3_ext _ _ rfl rfl rfl
  rw [e]

/-- Row r = 64 v + a of the normalized, transposed and flattened anchors is view v of anchor a divided by its clipped
    norm. -/
theorem v5_at (r : Fin 16384) (k : Fin 256) :
    val_main_v5 (F := Ideal) X (ix2 r k)
      = Ideal.div (X (ix3 (anchorOf r) (viewOf r) k)) (clipNorm X (anchorOf r) (viewOf r)) := by
  have e : idx_main_v4 (idx_main_v5 (ix2 r k)) = ix3 (anchorOf r) (viewOf r) k := by
    have hr := r.isLt
    have hk := k.isLt
    refine idx3_ext _ _ ?_ ?_ ?_
    · show (r.val * 256 + k.val) / 256 % 64 = r.val % 64
      omega
    · show (r.val * 256 + k.val) / 16384 = r.val / 64
      omega
    · show (r.val * 256 + k.val) % 256 = k.val
      omega
  have e2 : idx_main_v2 (ix3 (anchorOf r) (viewOf r) k) = ix3 (anchorOf r) (viewOf r) (0 : Fin 1) :=
    idx3_ext _ _ rfl rfl rfl
  rw [val_main_v5_apply, val_main_v4_apply, e, val_main_v3_apply, val_main_v2_apply, e2, v1_at]
  rfl

/-! ## The label comparison, the logits and the row maximum -/

/-- The mask at (r, n) is the 0/1 value of the comparison of the label of row r's anchor with the label of feature n. -/
theorem v14_at (r : Fin 16384) (n : Fin 4864) :
    val_main_v14 (F := Ideal) ya yc (ix2 r n) = (((labelEq ya yc r n).toNat : ℝ) : EReal) := by
  have hr := r.isLt
  have hn := n.isLt
  have ea : idx_main_v6 (idx_main_v8 (idx_main_v12 (idx_main_v13 (idx_main_v14 (ix2 r n))))) = ix1 (anchorOf r) := by
    refine idx1_ext _ _ ?_
    show ((((0 * 64 + (r.val * 4864 + n.val) / 4864 % 64) * 1 + 0) * 4864 + (r.val * 4864 + n.val) % 4864) / 4864)
      = r.val % 64
    omega
  have ec : idx_main_v7 (idx_main_v9 (idx_main_v12 (idx_main_v13 (idx_main_v14 (ix2 r n))))) = ix1 n := by
    refine idx1_ext _ _ ?_
    show ((((0 * 64 + (r.val * 4864 + n.val) / 4864 % 64) * 1 + 0) * 4864 + (r.val * 4864 + n.val) % 4864) % 4864)
      = n.val
    omega
  rw [val_main_v14_apply, val_main_v13_apply, val_main_v12_apply, val_main_v11_apply, val_main_v10_apply,
    val_main_v8_apply, val_main_v6_apply, val_main_v9_apply, val_main_v7_apply, ea, ec]
  rfl

/-- The logit of row r against feature n: the inner product of the normalized row with the feature, divided by the
    temperature. -/
theorem v18_at (r : Fin 16384) (n : Fin 4864) :
    val_main_v18 (F := Ideal) X C (ix2 r n) = logitR X C r n := by
  rw [val_main_v18_apply, val_main_v16_apply, val_main_v17_apply, val_main_cst_0_apply]
  unfold logitR
  simp only [Ideal.hostDivf_def, Ideal.ofBits_def]
  refine congrArg (fun s => Ideal.div s tau) (Finset.sum_congr rfl fun k _ => ?_)
  have el : lidx_main_v16 (ix2 r n) k = ix2 r k := idx2_ext _ _ rfl rfl
  have er : idx_main_v15 (ridx_main_v16 (ix2 r n) k) = ix2 n k := idx2_ext _ _ rfl rfl
  rw [val_main_v15_apply, el, er, v5_at]

/-- The row maximum: the fold of max from minus infinity over the row's logits. -/
theorem v19_at (r : Fin 16384) :
    val_main_v19 (F := Ideal) X C (ix1 r) = (Finset.univ : Finset (Fin 4864)).fold max negInf (logitR X C r) := by
  unfold val_main_v19
  rw [Host.reduce_eq_fold_single (FloatOps.maximumf (F := Ideal) (φ := .f32)) _ _ reducesTo_S16384x4864_S16384_d1
    (by decide) h_S_ (ix1 r)]
  have e : ∀ n : Fin 4864,
      (val_main_v18 (F := Ideal) X C ∘ (by decide : S16384x4864.Reduces [1] S16384).lift (ix1 r)) n
        = logitR X C r n := fun n => by
    have ei : (by decide : S16384x4864.Reduces [1] S16384).lift (ix1 r) n = ix2 r n := idx2_ext _ _ rfl rfl
    show val_main_v18 (F := Ideal) X C ((by decide : S16384x4864.Reduces [1] S16384).lift (ix1 r) n) = _
    rw [ei, v18_at]
  rw [show (val_main_v18 (F := Ideal) X C ∘ (by decide : S16384x4864.Reduces [1] S16384).lift (ix1 r))
      = logitR X C r from funext e]
  rfl

/-! ## The row loss -/

/-- The shifted logit. -/
theorem v22_at (r : Fin 16384) (n : Fin 4864) :
    val_main_v22 (F := Ideal) X C (ix2 r n)
      = logitR X C r n - (Finset.univ : Finset (Fin 4864)).fold max negInf (logitR X C r) := by
  have e : idx_main_v20 (idx_main_v21 (ix2 r n)) = ix1 r := idx1_ext _ _ rfl
  rw [val_main_v22_apply, val_main_v21_apply, val_main_v20_apply, e, v18_at, v19_at]
  rfl

/-- The shifted logit times the comparison value. -/
theorem v23_at (r : Fin 16384) (n : Fin 4864) :
    val_main_v23 (F := Ideal) X ya C yc (ix2 r n)
      = (logitR X C r n - (Finset.univ : Finset (Fin 4864)).fold max negInf (logitR X C r))
          * (((labelEq ya yc r n).toNat : ℝ) : EReal) := by
  rw [val_main_v23_apply, v22_at, v14_at]
  rfl

/-- The shifted logit times one minus the comparison value. -/
theorem v26_at (r : Fin 16384) (n : Fin 4864) :
    val_main_v26 (F := Ideal) X ya C yc (ix2 r n)
      = (logitR X C r n - (Finset.univ : Finset (Fin 4864)).fold max negInf (logitR X C r))
          * (one - (((labelEq ya yc r n).toNat : ℝ) : EReal)) := by
  rw [val_main_v26_apply, v22_at, val_main_v25_apply, v14_at, val_main_v24_apply, val_main_cst_2_apply]
  rfl

/-- The sum along the row of the exponentials of the second products, from the zero word. -/
theorem v28_at (r : Fin 16384) :
    val_main_v28 (F := Ideal) X ya C yc (ix1 r)
      = zero + ∑ n' : Fin 4864, Ideal.exp ((logitR X C r n'
          - (Finset.univ : Finset (Fin 4864)).fold max negInf (logitR X C r))
            * (one - (((labelEq ya yc r n').toNat : ℝ) : EReal))) := by
  rw [val_main_v28_apply, val_main_cst_3_apply]
  refine congrArg (fun s => zero + s) (Finset.sum_congr rfl fun k _ => ?_)
  have e : idx_main_v28 (ix1 r) k = ix2 r k := idx2_ext _ _ rfl rfl
  rw [e, val_main_v27_apply, v26_at]
  rfl

/-- One term of the row's numerator. -/
theorem v36_at (r : Fin 16384) (n : Fin 4864) :
    val_main_v36 (F := Ideal) X ya C yc (ix2 r n)
      = (logitR X C r n - (Finset.univ : Finset (Fin 4864)).fold max negInf (logitR X C r))
            * (((labelEq ya yc r n).toNat : ℝ) : EReal)
          - Ideal.log ((Ideal.exp ((logitR X C r n - (Finset.univ : Finset (Fin 4864)).fold max negInf (logitR X C r))
              * (((labelEq ya yc r n).toNat : ℝ) : EReal))
            + (zero + ∑ n' : Fin 4864, Ideal.exp ((logitR X C r n'
                - (Finset.univ : Finset (Fin 4864)).fold max negInf (logitR X C r))
                  * (one - (((labelEq ya yc r n').toNat : ℝ) : EReal))))) + eps) := by
  have e : idx_main_v29 (idx_main_v31 (ix2 r n)) = ix1 r := idx1_ext _ _ rfl
  rw [val_main_v36_apply, val_main_v35_apply, val_main_v34_apply, val_main_v32_apply, val_main_v30_apply,
    val_main_v31_apply, val_main_v29_apply, e, v28_at, v23_at, val_main_v33_apply, val_main_cst_4_apply]
  rfl

/-- The loss of row r. -/
theorem v41_at (r : Fin 16384) :
    val_main_v41 (F := Ideal) X ya C yc (ix1 r) = rowLossR (logitR X C r) (labelEq ya yc r) := by
  rw [val_main_v41_apply, val_main_v40_apply, val_main_cst_7_apply, val_main_v39_apply, val_main_v37_apply,
    val_main_v38_apply, val_main_cst_5_apply, val_main_cst_6_apply]
  have e37 : ∀ k : Fin 4864, idx_main_v37 (ix1 r) k = ix2 r k := fun k => idx2_ext _ _ rfl rfl
  have e38 : ∀ k : Fin 4864, idx_main_v38 (ix1 r) k = ix2 r k := fun k => idx2_ext _ _ rfl rfl
  simp only [e37, e38, v36_at, v14_at]
  rfl

/-! ## The mean over the rows -/

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

/-- The reference program's result is the mean of the row losses in the second arrangement. -/
theorem ref_total :
    Cert.ReferenceIdeal.Read.val_main_v43 (F := Ideal) X ya C yc = fun _ => Cert.ContrastLoss.totalR X ya C yc := by
  funext i
  rw [val_main_v43_apply, val_main_v42_apply, val_main_cst_8_apply, val_main_cst_9_apply]
  have es : ∑ j : S16384.Idx, val_main_v41 (F := Ideal) X ya C yc j
      = ∑ r : Fin 16384, rowLossR (logitR X C r) (labelEq ya yc r) := by
    rw [← Equiv.sum_comp (idxEquiv1 (n := 16384)).symm]
    exact Finset.sum_congr rfl fun r _ => v41_at X ya C yc r
  rw [es]
  rfl

end Cert.ReferenceIdeal.RefValue

end
-- ==== Proof.Bridge.lean ====
/-
  The two arrangements of the supervised contrastive loss (Spec.lean) are one function of real inputs.

  The words: the patterns of 0 and 1 denote 0 and 1; the temperature and the floor of the norm denote positive reals.
  With real anchor entries the clipped norm of a row is a positive real c (a square root of a sum of squares, floored by
  a positive real), so dividing each entry by c * tau before the inner product, or dividing the inner product of the
  entries over c by tau afterwards, is the same real number: sum_k (x_k / (c t)) y_k = (sum_k (x_k / c) y_k) / t.
  The loss of a row is the same in both arrangements for ANY logits, finite or not: the label comparison is a one-bit
  word w, and selecting s where w = 1 and 0 elsewhere is s * w, selecting e^s where w = 1 and 1 elsewhere is e^(s * w),
  selecting 1 where w = 1 and e^s elsewhere is e^(s * (1 - w)), on every extended real s, because s * 1 = s, s * 0 = 0
  and e^0 = 1 there.
-/
import proofs.«104632_j65575560675708_2_alg».proof.Proof.Spec

noncomputable section

namespace Cert.ContrastLoss

open Idealize.ShloMosaic Idealize.ShloMosaic.ValueIdx

/-! ## The words -/

theorem zero_eq : zero = 0 := Ideal.ofBits_zero_f32

theorem one_eq : one = 1 := by
  simp [Ideal.ofBits, Ideal.ieee, -EReal.coe_mul]; norm_num

/-- The temperature word is 9395241 * 2^-27 (about 0.07). -/
theorem tau_eq : tau = ((9395241 / 134217728 : ℝ) : EReal) := by
  simp [Ideal.ofBits, Ideal.ieee, -EReal.coe_mul]; norm_num

/-- The floor of the norm is 9223372 * 2^-63 (about 1e-12). -/
theorem tiny_eq : tiny = ((9223372 / 9223372036854775808 : ℝ) : EReal) := by
  simp [Ideal.ofBits, Ideal.ieee, -EReal.coe_mul]; norm_num

theorem tau_pos : ∃ t : ℝ, 0 < t ∧ tau = (t : EReal) := ⟨_, by norm_num, tau_eq⟩

theorem tiny_pos : ∃ e : ℝ, 0 < e ∧ tiny = (e : EReal) := ⟨_, by norm_num, tiny_eq⟩

/-! ## Sums of reals -/

/-- A finite sum of reals, taken in the extended reals, is the real sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The clipped norm of a real row is a positive real -/

theorem clipNorm_pos (X : (⟨3, ![64, 256, 256]⟩ : Shape).Idx → EReal) (hX : IsReal X) (a : Fin 64) (v : Fin 256) :
    ∃ c : ℝ, 0 < c ∧ clipNorm X a v = (c : EReal) := by
  obtain ⟨e, he, htiny⟩ := tiny_pos
  choose x hx using hX
  have hsum : zero + ∑ k : Fin 256, X (ix3 a v k) * X (ix3 a v k)
      = ((∑ k : Fin 256, x (ix3 a v k) * x (ix3 a v k) : ℝ) : EReal) := by
    rw [zero_eq, zero_add, ← coe_sum]
    exact Finset.sum_congr rfl fun k _ => by rw [hx, EReal.coe_mul]
  have hnn : 0 ≤ ∑ k : Fin 256, x (ix3 a v k) * x (ix3 a v k) :=
    Finset.sum_nonneg fun k _ => mul_self_nonneg _
  refine ⟨max e (Real.sqrt (∑ k : Fin 256, x (ix3 a v k) * x (ix3 a v k))), lt_max_of_lt_left he, ?_⟩
  rw [clipNorm, hsum, htiny, Ideal.sqrt_coe, if_neg (not_lt.mpr hnn)]
  exact (EReal.coe_strictMono.monotone.map_max).symm

/-! ## The logits -/

/-- Over the reals: dividing each entry by c * t before the inner product is dividing the inner product of the entries
    over c by t. -/
theorem logit_real (x y : Fin 256 → ℝ) (c t : ℝ) (hc : 0 < c) (ht : 0 < t) :
    ∑ k : Fin 256, Ideal.div (x k : EReal) ((c : EReal) * (t : EReal)) * (y k : EReal)
      = Ideal.div (∑ k : Fin 256, Ideal.div (x k : EReal) (c : EReal) * (y k : EReal)) (t : EReal) := by
  have hct : c * t ≠ 0 := (mul_pos hc ht).ne'
  rw [← EReal.coe_mul c t, Ideal.div_coe ht.ne']
  simp only [Ideal.div_coe hct, Ideal.div_coe hc.ne', ← EReal.coe_mul]
  rw [coe_sum, coe_sum, ← EReal.coe_mul, Finset.sum_mul]
  congr 1
  refine Finset.sum_congr rfl fun k _ => ?_
  field_simp

theorem logit_eq (X : (⟨3, ![64, 256, 256]⟩ : Shape).Idx → EReal) (C : (⟨2, ![4864, 256]⟩ : Shape).Idx → EReal)
    (hX : IsReal X) (hC : IsReal C) (r : Fin 16384) (n : Fin 4864) : logitK X C r n = logitR X C r n := by
  obtain ⟨c, hc, hcn⟩ := clipNorm_pos X hX (anchorOf r) (viewOf r)
  obtain ⟨t, ht, htau⟩ := tau_pos
  choose x hx using hX
  choose y hy using hC
  rw [logitK, logitR, hcn, htau]
  simp only [hx, hy]
  exact logit_real (fun k => x (ix3 (anchorOf r) (viewOf r) k)) (fun k => y (ix2 n k)) c t hc ht

/-! ## The loss of a row, for any logits -/

theorem bit_cases : ∀ b : BitVec 1, b = 0#1 ∨ b = 1#1 := by decide

theorem exp_zero : Ideal.exp 0 = 1 := by
  rw [← EReal.coe_zero, Ideal.exp_coe, Real.exp_zero, EReal.coe_one]

theorem one_sub_one : (1 : EReal) - 1 = 0 := by
  rw [← EReal.coe_one, ← EReal.coe_sub, sub_self, EReal.coe_zero]

/-- Selecting s on the bit 1 and 0 on the bit 0 is the product of s with the bit's value. -/
theorem sel_mul (w : BitVec 1) (s : EReal) : Scalar.select w s 0 = s * (((w.toNat : ℕ) : ℝ) : EReal) := by
  rcases bit_cases w with rfl | rfl
  · rw [select_zero]; simp
  · rw [select_one]; simp

/-- Selecting e^s on the bit 1 and 1 on the bit 0 is e^(s * bit). -/
theorem sel_exp (w : BitVec 1) (s : EReal) :
    Scalar.select w (Ideal.exp s) 1 = Ideal.exp (s * (((w.toNat : ℕ) : ℝ) : EReal)) := by
  rcases bit_cases w with rfl | rfl
  · rw [select_zero]; simp [exp_zero]
  · rw [select_one]; simp

/-- Selecting 1 on the bit 1 and e^s on the bit 0 is e^(s * (1 - bit)). -/
theorem sel_exp' (w : BitVec 1) (s : EReal) :
    Scalar.select w 1 (Ideal.exp s) = Ideal.exp (s * (1 - (((w.toNat : ℕ) : ℝ) : EReal))) := by
  rcases bit_cases w with rfl | rfl
  · rw [select_zero]; simp
  · rw [select_one]; simp [one_sub_one, exp_zero]

/-- The bit widened to 32 bits and read signed is the bit's value. -/
theorem toInt_eq (w : BitVec 1) : ((((w.setWidth 32).toInt : ℤ) : ℝ) : EReal) = (((w.toNat : ℕ) : ℝ) : EReal) := by
  rcases bit_cases w with rfl | rfl <;> simp

theorem rowLoss_eq (lg : Fin 4864 → EReal) (w : Fin 4864 → BitVec 1) : rowLossK lg w = rowLossR lg w := by
  simp only [rowLossK, rowLossR, zero_eq, one_eq, zero_add, sel_mul, sel_exp, sel_exp', toInt_eq]

/-! ## The mean of the row losses -/

theorem total_eq (X : (⟨3, ![64, 256, 256]⟩ : Shape).Idx → EReal) (ya : (⟨1, ![64]⟩ : Shape).Idx → BitVec 32)
    (C : (⟨2, ![4864, 256]⟩ : Shape).Idx → EReal) (yc : (⟨1, ![4864]⟩ : Shape).Idx → BitVec 32)
    (hX : IsReal X) (hC : IsReal C) : totalK X ya C yc = totalR X ya C yc := by
  have hl : ∀ r, logitK X C r = logitR X C r := fun r => funext fun n => logit_eq X C hX hC r n
  simp only [totalK, totalR, hl, rowLoss_eq]

end Cert.ContrastLoss

end
-- ==== Proof.Finite.lean ====
/-
  The precondition says every entry of both float arrays is a real number.

  The predicate is  all(|X| < +inf) and all(|C| < +inf):  each conjunct is a reduction by "and", from 1, of the one-bit
  comparisons of the absolute values with the +infinity word, so when the predicate is 1 every comparison is 1.  On the
  extended reals |x| = max x (-x) is +infinity at both infinities, so |x| < +infinity leaves only the reals.
-/
import proofs.«104632_j65575560675708_2_alg».proof.Defs
import proofs.«104632_j65575560675708_2_alg».proof.Proof.Gen.Pre_finite_inputs
import proofs.«104632_j65575560675708_2_alg».proof.Proof.Spec
import Idealize.ShloMosaic.Lib.ReduceAll

noncomputable section

namespace Cert.ContrastLoss.Finite

open Idealize.ShloMosaic Idealize.ShloMosaic.ValueIdx Cert.ContrastLoss

/-- A rank-0 array has one index. -/
instance : Subsingleton Cert.Pre_finite_inputs.S_.Idx := ⟨fun a b => funext fun d => d.elim0⟩

theorem ofBool_eq_one (b : Bool) : BitVec.ofBool b = 1#1 ↔ b = true := by cases b <;> decide

/-- The word 0x7F800000 denotes +infinity. -/
theorem ofBits_inf : Ideal.ofBits .f32 0x7F800000#32 = ⊤ := by simp [Ideal.ofBits, Ideal.ieee]

/-- An extended real whose absolute value compares below +infinity is a real. -/
theorem real_of_abs_lt (x : EReal)
    (h : Ideal.cmp .olt (max x (-x)) (Ideal.ofBits .f32 0x7F800000#32) = 1#1) : ∃ r : ℝ, x = (r : EReal) := by
  rw [ofBits_inf] at h
  simp only [Ideal.cmp, ofBool_eq_one, decide_eq_true_eq] at h
  induction x using EReal.rec with
  | bot => simp at h
  | top => simp at h
  | coe r => exact ⟨r, rfl⟩

theorem real_of_pre [hP : Cert.Pre_finite_inputs.Facts] (X : FVec Ideal Cert.Pre_finite_inputs.S64x256x256 .f32)
    (ya : IVec Cert.Pre_finite_inputs.S64 32) (C : FVec Ideal Cert.Pre_finite_inputs.S4864x256 .f32)
    (yc : IVec Cert.Pre_finite_inputs.S4864 32)
    (h : Cert.Pre_finite_inputs.fn (F := Ideal) X ya C yc = fun _ => 1#1) : IsReal X ∧ IsReal C := by
  have e := congrFun h ix0
  dsimp only [Cert.Pre_finite_inputs.fn] at e
  obtain ⟨eX, eC⟩ := IntOp.andi_eq_one.1 e
  exact ⟨fun i => real_of_abs_lt (X i) (Host.reduce_andi_all _ _ _ _ _ eX i),
    fun i => real_of_abs_lt (C i) (Host.reduce_andi_all _ _ _ _ _ eC i)⟩

end Cert.ContrastLoss.Finite

end
-- ==== Proof.lean ====
/-
  The certificate: a Pallas kernel for the supervised contrastive loss of 64 × 256 anchor views against 4864 contrast
  features, against its jnp reference, over the extended reals.

  Both programs compute the mean over the 16384 rows r = 64 v + a of the row loss
      - ( sum_n [ pos(n) - log( e^{pos(n)} + sum_{n'} e^{neg(n')} + eps ) ] ) / #{n : label(n) = label(a)},
  of the shifted logits s(n) = logit(n) - max_n logit(n) of the row (pos = s on the contrast features carrying the anchor's
  label, 0 elsewhere; neg = 0 there, s elsewhere).  They differ in two places.  The kernel divides every anchor entry by
  (clipped norm * temperature) on the host and takes the inner products in the region, the reference divides the inner
  products of the normalized rows by the temperature; on real entries, the clipped norm and the temperature being
  positive reals, the two logits are one real number — this is where the precondition that every float input is finite
  is used, since a quotient moves across a sum of products only on the finite.  And the kernel selects between s(n),
  e^{s(n)} and the constants 0, 1 by the label comparison where the reference multiplies s(n) by the comparison's 0/1
  value and by one minus it; those agree on every extended real (x * 1 = x, x * 0 = 0, e^0 = 1).

  The kernel program's run is read in three parts (the host operations before the region, the region's blocks over the
  generated frame run, the mean after the region), the reference's off its generated run one operation at a time; the
  frames of the two kernel programs are the generated ones and the reference's frame is its generated run with the
  result dropped.  The ideal pass rewrote nothing, so the kernel's idealization is its own text read at the extended
  reals.
-/
import proofs.«104632_j65575560675708_2_alg».proof.Defs
import proofs.«104632_j65575560675708_2_alg».proof.Proof.Gen.Kernel
import proofs.«104632_j65575560675708_2_alg».proof.Proof.Gen.Kernel.Frame
import proofs.«104632_j65575560675708_2_alg».proof.Proof.Gen.KernelIdeal
import proofs.«104632_j65575560675708_2_alg».proof.Proof.Gen.KernelIdeal.Frame
import proofs.«104632_j65575560675708_2_alg».proof.Proof.Gen.ReferenceIdeal
import proofs.«104632_j65575560675708_2_alg».proof.Proof.Gen.Pre_finite_inputs
import proofs.«104632_j65575560675708_2_alg».proof.Proof.Gen.ReferenceIdeal.Run
import proofs.«104632_j65575560675708_2_alg».proof.Proof.Gen.ReferenceIdeal.Read
import proofs.«104632_j65575560675708_2_alg».proof.Proof.KValue
import proofs.«104632_j65575560675708_2_alg».proof.Proof.RefValue
import proofs.«104632_j65575560675708_2_alg».proof.Proof.Bridge
import proofs.«104632_j65575560675708_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result is the mean of the row losses in its own arrangement, the reference's the mean in the other;
    on finite inputs the two means are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.ContrastLoss.totalK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.ref_total,
    (hagree c).1, (hagree c).2.1, (hagree c).2.2.1, (hagree c).2.2.2]
  obtain ⟨hX, hC⟩ := Cert.ContrastLoss.Finite.real_of_pre (hP := Cert.Pre_finite_inputs.Gen.facts) _ _ _ _ (hpre c)
  exact funext fun _ => (Cert.ContrastLoss.total_eq _ _ _ _ hX hC).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
